-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S640000 : Shape := ⟨1, ![640000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S128x128 .f32) (main_arg2 : FVec F S128x128 .f32) (main_arg3 : FVec F S128 .f32) (main_arg4 : IVec S640000 32) (main_arg5 : IVec S640000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128 : Shape := ⟨1, ![128]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 34
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S640000, .i32⟩
  | .hbm, ⟨5, _⟩ => ⟨S640000, .i32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .f32⟩
  | .hbm, ⟨15, _⟩ => ⟨S_, .f32⟩
  | .hbm, ⟨16, _⟩ => ⟨S100000x128, .f32⟩
  | .hbm, ⟨17, _⟩ => ⟨S640000x1, .i32⟩
  | .hbm, ⟨18, _⟩ => ⟨S100000x128, .f32⟩
  | .hbm, ⟨19, _⟩ => ⟨S_, .f32⟩
  | .hbm, ⟨20, _⟩ => ⟨S640000, .f32⟩
  | .hbm, ⟨21, _⟩ => ⟨S_, .f32⟩
  | .hbm, ⟨22, _⟩ => ⟨S100000, .f32⟩
  | .hbm, ⟨23, _⟩ => ⟨S640000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S1x128, .f32⟩
  | .hbm, ⟨33, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S640000, .i32⟩
  | .hbm, ⟨5, _⟩ => ⟨S640000, .i32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .f32⟩
  | .hbm, ⟨15, _⟩ => ⟨S_, .f32⟩
  | .hbm, ⟨16, _⟩ => ⟨S100000x128, .f32⟩
  | .hbm, ⟨17, _⟩ => ⟨S640000x1, .i32⟩
  | .hbm, ⟨18, _⟩ => ⟨S100000x128, .f32⟩
  | .hbm, ⟨19, _⟩ => ⟨S_, .f32⟩
  | .hbm, ⟨20, _⟩ => ⟨S640000, .f32⟩
  | .hbm, ⟨21, _⟩ => ⟨S_, .f32⟩
  | .hbm, ⟨22, _⟩ => ⟨S100000, .f32⟩
  | .hbm, ⟨23, _⟩ => ⟨S640000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.LibGcnBody.lean ====
/-
  The four kernel bodies of the graph network, read at one entry `(p, q)` of the output block, at the ideal values
  (a change of float format is the identity, a product accumulated from zero is the plain sum):

    linear          (x · w)(p, q)                         = Σ_k x(p, k) · w(k, q)
    combine         max (agg(p, q) + h(p, q) · d(p, 0) + bias(0, q)) 0
    linear + bias   Σ_k x(p, k) · w(k, q) + bias(0, q)          (and its maximum with 0)

  `d` is a column `[a, 1]` spread along the rows, `bias` a row `[1, b]` spread along the columns; the identity
  shape casts the bodies carry drop out.
-/
import Idealize.ShloMosaic.Lib.ValueIdx
import Idealize.ShloMosaic.Lib.ValueLayout
import Idealize.ShloMosaic.Lib.Pipeline.Value
import Idealize.ShloMosaic.PureOps.Ideal.Laws
import proofs.«174371_j91250875171573_2_alg».proof.Proof.LibMatmulIx
import proofs.«174371_j91250875171573_2_alg».proof.Proof.LibLayout

noncomputable section

namespace Cert.Gcn.Body

open Idealize.ShloMosaic Idealize.ShloMosaic.ValueIdx

variable {a K b : ℕ}

/-- A one-row array `[1, b]` spread over `a` rows reads, at `(p, q)`, the row's entry `q`. -/
theorem rowSpread_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The linear body: the product of the operands cut to bf16, accumulated from zero, is the plain sum of products. -/
theorem linear_apply (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hlt : FTy.bits .bf16 < FTy.bits .f32)
    (x : FVec Ideal ⟨2, ![a, K]⟩ .f32) (w : FVec Ideal ⟨2, ![K, b]⟩ .f32) (p : Fin a) (q : Fin b) :
    matmul D none (truncf .bf16 x hlt) (truncf .bf16 w hlt) (constant (F := Ideal) ⟨2, ![a, b]⟩ .f32 0x00000000#32) (ix2 p q)
      = ∑ k : Fin K, x (ix2 p k) * w (ix2 k q) :=
  MatmulIx.matmul_zero_ix2 D hr hs hl0 hl1 hr0 hr1 none (truncf .bf16 x hlt) (truncf .bf16 w hlt) p q

/-- The linear body whose input block first passes an identity shape cast. -/
theorem linearCast_apply (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hlt : FTy.bits .bf16 < FTy.bits .f32)
    (x : FVec Ideal ⟨2, ![a, K]⟩ .f32) (w : FVec Ideal ⟨2, ![K, b]⟩ .f32)
    (c0 : (⟨2, ![a, K]⟩ : Shape).ShapeCasts ⟨2, ![a, K]⟩) (p : Fin a) (q : Fin b) :
    matmul D none (truncf .bf16 (shapeCast ⟨2, ![a, K]⟩ x c0) hlt) (truncf .bf16 w hlt)
        (constant (F := Ideal) ⟨2, ![a, b]⟩ .f32 0x00000000#32) (ix2 p q)
      = ∑ k : Fin K, x (ix2 p k) * w (ix2 k q) := by
  rw [shapeCast_self x c0]
  exact linear_apply D hr hs hl0 hl1 hr0 hr1 hlt x w p q

/-- The combine body: the aggregate plus the node's own row scaled by its column entry plus the bias row, cut below at 0. -/
theorem combine_apply (agg h : FVec Ideal ⟨2, ![a, b]⟩ .f32) (d : FVec Ideal ⟨2, ![a, 1]⟩ .f32) (bias : FVec Ideal ⟨2, ![1, b]⟩ .f32)
    (c0 : (⟨2, ![a, b]⟩ : Shape).ShapeCasts ⟨2, ![a, b]⟩) (c1 : (⟨2, ![a, 1]⟩ : Shape).ShapeCasts ⟨2, ![a, 1]⟩)
    (c2 : (⟨2, ![1, b]⟩ : Shape).ShapeCasts ⟨2, ![1, b]⟩)
    (hb : (⟨2, ![1, b]⟩ : Shape).Broadcasts ⟨2, ![a, b]⟩) (hd : (⟨2, ![a, 1]⟩ : Shape).Broadcasts ⟨2, ![a, b]⟩)
    (p : Fin a) (q : Fin b) :
    maximumf (addf (addf (shapeCast ⟨2, ![a, b]⟩ agg c0)
        (mulf (shapeCast ⟨2, ![a, b]⟩ h c0) (broadcastTo ⟨2, ![a, b]⟩ (shapeCast ⟨2, ![a, 1]⟩ d c1) hd)))
        (broadcastTo ⟨2, ![a, b]⟩ (shapeCast ⟨2, ![1, b]⟩ (shapeCast ⟨2, ![1, b]⟩ bias c2) c2) hb))
      (broadcast ⟨2, ![a, b]⟩ (Scalar.ofBits (F := Ideal) .f32 0x00000000#32)) (ix2 p q)
      = max (agg (ix2 p q) + h (ix2 p q) * d (ix2 p (0 : Fin 1)) + bias (ix2 (0 : Fin 1) q)) (Ideal.ofBits .f32 0x00000000#32) := by
  rw [shapeCast_self agg c0, shapeCast_self h c0, shapeCast_self d c1, shapeCast_self bias c2, shapeCast_self bias c2]
  rw [maximumf_apply, addf_apply, addf_apply, mulf_apply, broadcast_apply, rowSpread_apply,
    Cert.Attn.Layout.broadcastTo_a1_ab_apply]
  rfl

/-- The linear body with a bias row added. -/
theorem linearBias_apply (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hlt : FTy.bits .bf16 < FTy.bits .f32)
    (x : FVec Ideal ⟨2, ![a, K]⟩ .f32) (w : FVec Ideal ⟨2, ![K, b]⟩ .f32) (bias : FVec Ideal ⟨2, ![1, b]⟩ .f32)
    (c0 : (⟨2, ![a, K]⟩ : Shape).ShapeCasts ⟨2, ![a, K]⟩) (c2 : (⟨2, ![1, b]⟩ : Shape).ShapeCasts ⟨2, ![1, b]⟩)
    (hb : (⟨2, ![1, b]⟩ : Shape).Broadcasts ⟨2, ![a, b]⟩) (p : Fin a) (q : Fin b) :
    addf (matmul D none (truncf .bf16 (shapeCast ⟨2, ![a, K]⟩ x c0) hlt) (truncf .bf16 w hlt)
        (constant (F := Ideal) ⟨2, ![a, b]⟩ .f32 0x00000000#32))
      (broadcastTo ⟨2, ![a, b]⟩ (shapeCast ⟨2, ![1, b]⟩ (shapeCast ⟨2, ![1, b]⟩ bias c2) c2) hb) (ix2 p q)
      = (∑ k : Fin K, x (ix2 p k) * w (ix2 k q)) + bias (ix2 (0 : Fin 1) q) := by
  rw [shapeCast_self x c0, shapeCast_self bias c2, shapeCast_self bias c2]
  rw [addf_apply, rowSpread_apply, linear_apply D hr hs hl0 hl1 hr0 hr1 hlt x w p q]

/-- The same, cut below at 0. -/
theorem linearBiasRelu_apply (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hlt : FTy.bits .bf16 < FTy.bits .f32)
    (x : FVec Ideal ⟨2, ![a, K]⟩ .f32) (w : FVec Ideal ⟨2, ![K, b]⟩ .f32) (bias : FVec Ideal ⟨2, ![1, b]⟩ .f32)
    (c0 : (⟨2, ![a, K]⟩ : Shape).ShapeCasts ⟨2, ![a, K]⟩) (c2 : (⟨2, ![1, b]⟩ : Shape).ShapeCasts ⟨2, ![1, b]⟩)
    (hb : (⟨2, ![1, b]⟩ : Shape).Broadcasts ⟨2, ![a, b]⟩) (p : Fin a) (q : Fin b) :
    maximumf (addf (matmul D none (truncf .bf16 (shapeCast ⟨2, ![a, K]⟩ x c0) hlt) (truncf .bf16 w hlt)
        (constant (F := Ideal) ⟨2, ![a, b]⟩ .f32 0x00000000#32))
      (broadcastTo ⟨2, ![a, b]⟩ (shapeCast ⟨2, ![1, b]⟩ (shapeCast ⟨2, ![1, b]⟩ bias c2) c2) hb))
      (broadcast ⟨2, ![a, b]⟩ (Scalar.ofBits (F := Ideal) .f32 0x00000000#32)) (ix2 p q)
      = max ((∑ k : Fin K, x (ix2 p k) * w (ix2 k q)) + bias (ix2 (0 : Fin 1) q)) (Ideal.ofBits .f32 0x00000000#32) := by
  rw [maximumf_apply, broadcast_apply, linearBias_apply D hr hs hl0 hl1 hr0 hr1 hlt x w bias c0 c2 hb p q]
  rfl

/-! ## The bodies as whole-array functions -/

/-- The combine stage over whole arrays: at row `r`, column `q`, the aggregate plus the node's own row scaled by the
    node's entry of the column `d`, plus the bias row, cut below at 0. -/
def combined (agg h : (⟨2, ![a, b]⟩ : Shape).Idx → EReal) (d : (⟨2, ![a, 1]⟩ : Shape).Idx → EReal)
    (bias : (⟨2, ![1, b]⟩ : Shape).Idx → EReal) : (⟨2, ![a, b]⟩ : Shape).Idx → EReal :=
  fun i => max (agg i + h i * d (ix2 (⟨(i 0).val, (i 0).isLt⟩ : Fin a) (0 : Fin 1))
    + bias (ix2 (0 : Fin 1) (⟨(i 1).val, (i 1).isLt⟩ : Fin b))) (Ideal.ofBits .f32 0x00000000#32)

theorem combined_ix2 (agg h : (⟨2, ![a, b]⟩ : Shape).Idx → EReal) (d : (⟨2, ![a, 1]⟩ : Shape).Idx → EReal)
    (bias : (⟨2, ![1, b]⟩ : Shape).Idx → EReal) (p : Fin a) (q : Fin b) :
    combined agg h d bias (ix2 p q)
      = max (agg (ix2 p q) + h (ix2 p q) * d (ix2 p (0 : Fin 1)) + bias (ix2 (0 : Fin 1) q)) (Ideal.ofBits .f32 0x00000000#32) := rfl

/-- A bias row added to every row of an array. -/
def biased (y : (⟨2, ![a, b]⟩ : Shape).Idx → EReal) (bias : (⟨2, ![1, b]⟩ : Shape).Idx → EReal) :
    (⟨2, ![a, b]⟩ : Shape).Idx → EReal :=
  fun i => y i + bias (ix2 (0 : Fin 1) (⟨(i 1).val, (i 1).isLt⟩ : Fin b))

theorem biased_ix2 (y : (⟨2, ![a, b]⟩ : Shape).Idx → EReal) (bias : (⟨2, ![1, b]⟩ : Shape).Idx → EReal) (p : Fin a) (q : Fin b) :
    biased y bias (ix2 p q) = y (ix2 p q) + bias (ix2 (0 : Fin 1) q) := rfl

/-- The same, cut below at 0. -/
def biasedRelu (y : (⟨2, ![a, b]⟩ : Shape).Idx → EReal) (bias : (⟨2, ![1, b]⟩ : Shape).Idx → EReal) :
    (⟨2, ![a, b]⟩ : Shape).Idx → EReal :=
  fun i => max (y i + bias (ix2 (0 : Fin 1) (⟨(i 1).val, (i 1).isLt⟩ : Fin b))) (Ideal.ofBits .f32 0x00000000#32)

theorem biasedRelu_ix2 (y : (⟨2, ![a, b]⟩ : Shape).Idx → EReal) (bias : (⟨2, ![1, b]⟩ : Shape).Idx → EReal) (p : Fin a) (q : Fin b) :
    biasedRelu y bias (ix2 p q) = max (y (ix2 p q) + bias (ix2 (0 : Fin 1) q)) (Ideal.ofBits .f32 0x00000000#32) := rfl

/-- A vector of `b` entries cast to the one row `[1, b]` reads, at `(u, q)`, the operand at `q`. -/
theorem shapeCast_b_1b_apply {α : Type} (x : (⟨1, ![b]⟩ : Shape).Idx → α) (h : (⟨1, ![b]⟩ : Shape).ShapeCasts ⟨2, ![1, b]⟩)
    (u : Fin 1) (q : Fin b) : shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

end Cert.Gcn.Body

end
-- ==== Proof.SageBody.lean ====
/-
  The kernel body's stored value read at one entry (p, q) of the output block, at the ideal values.

  The body forms two products of operands cut to bf16 and accumulated from zero — the block of summed messages with the
  neighbour weight, and the block of node features with the root weight —, scales the first by the block's column of
  reciprocal degrees spread along the rows, adds the two, and adds the bias row spread along the columns.  At the ideal
  values a change of float format is the identity and a product accumulated from zero is the plain sum of products, so
  entry (p, q) is  (Σ_k s(p,k)·w(k,q)) · d(p,0) + Σ_k x(p,k)·r(k,q) + bias(0,q).
-/
import proofs.«174371_j91250875171573_2_alg».proof.Proof.Gen.KernelIdeal.Skeleton
import proofs.«174371_j91250875171573_2_alg».proof.Proof.LibGcnBody

noncomputable section

namespace Cert.KernelIdeal.Sage

open Cert.KernelIdeal Cert.KernelIdeal.Gen Idealize.ShloMosaic Idealize.ShloMosaic.ValueIdx
open scoped BigOperators

/-- The body's product contracts the left operand's columns with the right operand's rows: the four coordinate facts. -/
theorem dot_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem dot_l1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem dot_r0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem dot_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- THE STORED VALUE AT (p, q). -/
theorem pay_apply (s x : FVec Ideal S5000x128 .f32) (w r : FVec Ideal S128x128 .f32) (d : FVec Ideal S5000x1 .f32)
    (bias : FVec Ideal S1x128 .f32) (p : Fin 5000) (q : Fin 128) :
    k0_pay1 (F := Ideal) s x w r d bias (ix2 p q)
      = (∑ k : Fin 128, s (ix2 p k) * w (ix2 k q)) * d (ix2 p (0 : Fin 1))
        + (∑ k : Fin 128, x (ix2 p k) * r (ix2 k q)) + bias (ix2 (0 : Fin 1) q) := by
  unfold k0_pay1
  rw [addf_apply, addf_apply, mulf_apply, Cert.Gcn.Body.rowSpread_apply, Cert.Attn.Layout.broadcastTo_a1_ab_apply,
    shapeCast_self d, shapeCast_self bias,
    Cert.Gcn.Body.linearCast_apply dot_S5000x128_S128x128_S5000x128_1_0_0_1_n_n rfl rfl dot_l0 dot_l1 dot_r0 dot_r1,
    Cert.Gcn.Body.linear_apply dot_S5000x128_S128x128_S5000x128_1_0_0_1_n_n rfl rfl dot_l0 dot_l1 dot_r0 dot_r1]

end Cert.KernelIdeal.Sage

end
-- ==== Proof.SageSpec.lean ====
/-
  The dense stage of the layer as one function of whole arrays, in the kernel's arrangement.

  For summed messages s : [N, K], node features x : [N, K], a column d : [N, 1] of per-node scales, the neighbour and
  root weights w, r : [K, B] and a bias row [1, B], entry (n, q) of the result is

      (Σ_k s(n,k) · w(k,q)) · d(n,0) + Σ_k x(n,k) · r(k,q) + bias(0,q).
-/
import Idealize.ShloMosaic.Lib.ValueIdx
import Idealize.ShloMosaic.PureOps.Ideal

noncomputable section

namespace Cert.Sage.Spec

open Idealize.ShloMosaic Idealize.ShloMosaic.ValueIdx
open scoped BigOperators

variable {N K B : ℕ}

/-- The dense stage over whole arrays. -/
def dense (s x : (⟨2, ![N, K]⟩ : Shape).Idx → EReal) (d : (⟨2, ![N, 1]⟩ : Shape).Idx → EReal)
    (w r : (⟨2, ![K, B]⟩ : Shape).Idx → EReal) (bias : (⟨2, ![1, B]⟩ : Shape).Idx → EReal) :
    (⟨2, ![N, B]⟩ : Shape).Idx → EReal :=
  fun i =>
    (∑ k : Fin K, s (ix2 (⟨(i 0).val, (i 0).isLt⟩ : Fin N) k) * w (ix2 k (⟨(i 1).val, (i 1).isLt⟩ : Fin B)))
        * d (ix2 (⟨(i 0).val, (i 0).isLt⟩ : Fin N) (0 : Fin 1))
      + (∑ k : Fin K, x (ix2 (⟨(i 0).val, (i 0).isLt⟩ : Fin N) k) * r (ix2 k (⟨(i 1).val, (i 1).isLt⟩ : Fin B)))
      + bias (ix2 (0 : Fin 1) (⟨(i 1).val, (i 1).isLt⟩ : Fin B))

/-- The dense stage at entry (n, q). -/
theorem dense_ix2 (s x : (⟨2, ![N, K]⟩ : Shape).Idx → EReal) (d : (⟨2, ![N, 1]⟩ : Shape).Idx → EReal)
    (w r : (⟨2, ![K, B]⟩ : Shape).Idx → EReal) (bias : (⟨2, ![1, B]⟩ : Shape).Idx → EReal) (n : Fin N) (q : Fin B) :
    dense s x d w r bias (ix2 n q)
      = (∑ k : Fin K, s (ix2 n k) * w (ix2 k q)) * d (ix2 n (0 : Fin 1))
        + (∑ k : Fin K, x (ix2 n k) * r (ix2 k q)) + bias (ix2 (0 : Fin 1) q) := rfl

end Cert.Sage.Spec

end
-- ==== Proof.SageBlocks.lean ====
/-
  From blocks to the array: what the kernel's run leaves in its result.

  Grid point t stages rows 5000·t … 5000·t + 4999 of the summed messages, of the node features and of the column of
  reciprocal degrees, the two whole weight matrices and the bias row, and writes back rows 5000·t … 5000·t + 4999 of the
  result.  Its body's stored value at (p, q) is the dense stage of those blocks, which is the dense stage of the whole
  arrays at row 5000·t + p; the twenty blocks tile the 100000 rows, so after the run the result array is the dense
  stage of the arrays as the region found them.
-/
import proofs.«174371_j91250875171573_2_alg».proof.Proof.Gen.KernelIdeal.Value
import proofs.«174371_j91250875171573_2_alg».proof.Proof.SageBody
import proofs.«174371_j91250875171573_2_alg».proof.Proof.SageSpec
import Idealize.ShloMosaic.Lib.Pipeline.Value

set_option pp.maxSteps 5000
set_option pp.deepTerms false

noncomputable section

namespace Cert.KernelIdeal.Sage

open Cert.KernelIdeal Cert.KernelIdeal.Gen Cert.KernelIdeal.Value Cert.Sage.Spec
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row-blocked windows sit at block (t, 0), the whole-array windows at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row 5000·t + p is a row of the array. -/
theorem row_lt (t : Fin cfg0.N) (p : Fin 5000) : t.val * 5000 + p.val < 100000 := by
  have hN : cfg0.N = 20 := N_0
  have := t.isLt
  have := p.isLt
  omega

/-- The array row of row p of block t. -/
abbrev arow (t : Fin cfg0.N) (p : Fin 5000) : Fin 100000 := ⟨t.val * 5000 + p.val, row_lt t p⟩

/-- The block of summed messages at point t: rows 5000·t … of the array. -/
theorem blk_summed (c : Dev nD) (t : Fin cfg0.N) (p : Fin 5000) (k : Fin 128) :
    (iblk m c 0 t : Vec Ideal S5000x128 .f32) (ix2 p k) = (V m c main_v9 : S100000x128.Idx → EReal) (ix2 (arow t p) k) := by
  obtain ⟨h0, h1, -⟩ := idx_facts t
  unfold iblk
  rw [View.read_apply, cast_eq]
  refine congrArg (V m c main_v9 : S100000x128.Idx → EReal) (funext fun a => Fin.ext ?_)
  match a with
  | ⟨0, _⟩ => show win0_0.index t (0 : Fin 2) * 5000 + 1 * p.val = t.val * 5000 + p.val; rw [h0]; omega
  | ⟨1, _⟩ => show win0_0.index t (1 : Fin 2) * 128 + 1 * k.val = k.val; rw [h1]; omega

/-- The block of node features at point t. -/
theorem blk_feat (c : Dev nD) (t : Fin cfg0.N) (p : Fin 5000) (k : Fin 128) :
    (iblk m c 1 t : Vec Ideal S5000x128 .f32) (ix2 p k) = (V m c main_arg0 : S100000x128.Idx → EReal) (ix2 (arow t p) k) := by
  obtain ⟨-, -, h0, h1, -⟩ := idx_facts t
  unfold iblk
  rw [View.read_apply, cast_eq]
  refine congrArg (V m c main_arg0 : S100000x128.Idx → EReal) (funext fun a => Fin.ext ?_)
  match a with
  | ⟨0, _⟩ => show win0_1.index t (0 : Fin 2) * 5000 + 1 * p.val = t.val * 5000 + p.val; rw [h0]; omega
  | ⟨1, _⟩ => show win0_1.index t (1 : Fin 2) * 128 + 1 * k.val = k.val; rw [h1]; omega

/-- The block of the column of reciprocal degrees at point t. -/
theorem blk_inv (c : Dev nD) (t : Fin cfg0.N) (p : Fin 5000) :
    (iblk m c 2 t : Vec Ideal S5000x1 .f32) (ix2 p (0 : Fin 1)) = (V m c main_v18 : S100000x1.Idx → EReal) (ix2 (arow t p) (0 : Fin 1)) := by
  obtain ⟨-, -, -, -, h0, h1, -⟩ := idx_facts t
  unfold iblk
  rw [View.read_apply, cast_eq]
  refine congrArg (V m c main_v18 : S100000x1.Idx → EReal) (funext fun a => Fin.ext ?_)
  match a with
  | ⟨0, _⟩ => show win0_2.index t (0 : Fin 2) * 5000 + 1 * p.val = t.val * 5000 + p.val; rw [h0]; omega
  | ⟨1, _⟩ => show win0_2.index t (1 : Fin 2) * 1 + 1 * 0 = 0; rw [h1]

/-- The neighbour weight is staged whole at every point. -/
theorem blk_w (c : Dev nD) (t : Fin cfg0.N) (k q : Fin 128) :
    (iblk m c 3 t : Vec Ideal S128x128 .f32) (ix2 k q) = (V m c main_arg1 : S128x128.Idx → EReal) (ix2 k q) := by
  obtain ⟨-, -, -, -, -, -, h0, h1, -⟩ := idx_facts t
  unfold iblk
  rw [View.read_apply, cast_eq]
  refine congrArg (V m c main_arg1 : S128x128.Idx → EReal) (funext fun a => Fin.ext ?_)
  match a with
  | ⟨0, _⟩ => show win0_3.index t (0 : Fin 2) * 128 + 1 * k.val = k.val; rw [h0]; omega
  | ⟨1, _⟩ => show win0_3.index t (1 : Fin 2) * 128 + 1 * q.val = q.val; rw [h1]; omega

/-- The root weight is staged whole at every point. -/
theorem blk_r (c : Dev nD) (t : Fin cfg0.N) (k q : Fin 128) :
    (iblk m c 4 t : Vec Ideal S128x128 .f32) (ix2 k q) = (V m c main_arg2 : S128x128.Idx → EReal) (ix2 k q) := by
  obtain ⟨-, -, -, -, -, -, -, -, h0, h1, -⟩ := idx_facts t
  unfold iblk
  rw [View.read_apply, cast_eq]
  refine congrArg (V m c main_arg2 : S128x128.Idx → EReal) (funext fun a => Fin.ext ?_)
  match a with
  | ⟨0, _⟩ => show win0_4.index t (0 : Fin 2) * 128 + 1 * k.val = k.val; rw [h0]; omega
  | ⟨1, _⟩ => show win0_4.index t (1 : Fin 2) * 128 + 1 * q.val = q.val; rw [h1]; omega

/-- The bias row is staged whole at every point. -/
theorem blk_bias (c : Dev nD) (t : Fin cfg0.N) (q : Fin 128) :
    (iblk m c 5 t : Vec Ideal S1x128 .f32) (ix2 (0 : Fin 1) q) = (V m c main_v19 : S1x128.Idx → EReal) (ix2 (0 : Fin 1) q) := by
  obtain ⟨-, -, -, -, -, -, -, -, -, -, h0, h1, -⟩ := idx_facts t
  unfold iblk
  rw [View.read_apply, cast_eq]
  refine congrArg (V m c main_v19 : S1x128.Idx → EReal) (funext fun a => Fin.ext ?_)
  match a with
  | ⟨0, _⟩ => show win0_5.index t (0 : Fin 2) * 1 + 1 * 0 = 0; rw [h0]
  | ⟨1, _⟩ => show win0_5.index t (1 : Fin 2) * 128 + 1 * q.val = q.val; rw [h1]; omega

/-- ONE POINT'S VALUE: if the six blocks are the rows 5000·T … of the row-blocked arrays and the whole weight and bias
    arrays, the body's stored value at y is the dense stage of the whole arrays at the array index i that y sits at. -/
theorem point_value (S X : S100000x128.Idx → EReal) (D : S100000x1.Idx → EReal) (W R : S128x128.Idx → EReal)
    (Bi : S1x128.Idx → EReal) (s x : FVec Ideal S5000x128 .f32) (w r : FVec Ideal S128x128 .f32)
    (d : FVec Ideal S5000x1 .f32) (bias : FVec Ideal S1x128 .f32) (t : Fin cfg0.N)
    (hs : ∀ (p : Fin 5000) (k : Fin 128), s (ix2 p k) = S (ix2 (arow t p) k))
    (hx : ∀ (p : Fin 5000) (k : Fin 128), x (ix2 p k) = X (ix2 (arow t p) k))
    (hd : ∀ p : Fin 5000, d (ix2 p (0 : Fin 1)) = D (ix2 (arow t p) (0 : Fin 1)))
    (hw : ∀ k q : Fin 128, w (ix2 k q) = W (ix2 k q)) (hr : ∀ k q : Fin 128, r (ix2 k q) = R (ix2 k q))
    (hb : ∀ q : Fin 128, bias (ix2 (0 : Fin 1) q) = Bi (ix2 (0 : Fin 1) q))
    (y : S5000x128.Idx) (i : S100000x128.Idx) (hi0 : (i 0).val = t.val * 5000 + (y 0).val) (hi1 : (i 1).val = (y 1).val) :
    k0_pay1 (F := Ideal) s x w r d bias y = dense S X D W R Bi i := by
  obtain ⟨p, q, rfl⟩ : ∃ (p : Fin 5000) (q : Fin 128), y = ix2 p q := ⟨y 0, y 1, eq_ix2 y⟩
  obtain ⟨n, q', rfl⟩ : ∃ (n : Fin 100000) (q' : Fin 128), i = ix2 n q' := ⟨i 0, i 1, eq_ix2 i⟩
  obtain rfl : n = arow t p := Fin.ext hi0
  obtain rfl : q' = q := Fin.ext hi1
  rw [pay_apply, dense_ix2]
  simp only [hs, hx, hd, hw, hr, hb]

/-- The region's result as a whole array: the dense stage of the arrays the region finds. -/
abbrev result (c : Dev nD) : S100000x128.Idx → EReal :=
  dense (V m c main_v9 : S100000x128.Idx → EReal) (V m c main_arg0 : S100000x128.Idx → EReal)
    (V m c main_v18 : S100000x1.Idx → EReal) (V m c main_arg1 : S128x128.Idx → EReal)
    (V m c main_arg2 : S128x128.Idx → EReal) (V m c main_v19 : S1x128.Idx → EReal)

/-- WHAT POINT t WRITES BACK is block t of the dense stage. -/
theorem flushed_eq (c : Dev nD) (t : Fin cfg0.N) :
    (dats m 0 c).flushed 6 t = ((cfg0.win 6).blk t).view.read (Elt Ideal) (result m c) := by
  obtain ⟨-, -, -, -, -, -, -, -, -, -, -, -, h0, h1⟩ := idx_facts t
  rw [flushed6]
  unfold out0_6
  rw [View.canon_unit_zero hz]
  simp only [View.ld_unit_zero (S := S5000x128) hz, View.ld_unit_zero (S := S128x128) hz,
    View.ld_unit_zero (S := S5000x1) hz, View.ld_unit_zero (S := S1x128) hz]
  funext j
  rw [View.read_apply, cast_eq]
  refine point_value (V m c main_v9 : S100000x128.Idx → EReal) (V m c main_arg0 : S100000x128.Idx → EReal)
    (V m c main_v18 : S100000x1.Idx → EReal) (V m c main_arg1 : S128x128.Idx → EReal)
    (V m c main_arg2 : S128x128.Idx → EReal) (V m c main_v19 : S1x128.Idx → EReal)
    (iblk m c 0 t) (iblk m c 1 t) (iblk m c 3 t) (iblk m c 4 t) (iblk m c 2 t) (iblk m c 5 t) t
    (blk_summed m c t) (blk_feat m c t) (blk_inv m c t) (blk_w m c t) (blk_r m c t) (blk_bias m c t)
    ((cfg0.win 6).xinj (grid0.coords t) j) (((cfg0.win 6).blk t).view.emb j) ?_ ?_
  · show win0_6.index t (0 : Fin 2) * 5000 + 1 * (j 0).val = t.val * 5000 + (j 0).val
    rw [h0]; omega
  · show win0_6.index t (1 : Fin 2) * 128 + 1 * (j 1).val = (j 1).val
    rw [h1]; omega

/-- An index of the array is in point t's block iff each coordinate is in the block's range on its axis. -/
theorem mem_blk (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v20).slice (win0_6.rect t)).set ↔ _
  rw [View.set_slice_whole, Rect.mem_set_unit]
  exact Iff.rfl

/-- THE BLOCKS COVER THE ARRAY: row r lies in the block of point r / 5000. -/
theorem cover (i : S100000x128.Idx) :
    ∃ t : Fin cfg0.N, (cfg0.win 6).flush t = true ∧ i ∈ ((cfg0.win 6).blk t).view.set := by
  have hN : cfg0.N = 20 := N_0
  have hi0 : (i 0).val < 100000 := (i 0).isLt
  have hi1 : (i 1).val < 128 := (i 1).isLt
  have hlt : (i 0).val / 5000 < cfg0.N := by rw [hN]; omega
  refine ⟨⟨(i 0).val / 5000, hlt⟩, flush0_6 _, ?_⟩
  obtain ⟨-, -, -, -, -, -, -, -, -, -, -, -, h0, h1⟩ := idx_facts ⟨(i 0).val / 5000, hlt⟩
  rw [mem_blk]
  intro a
  match a with
  | ⟨0, _⟩ =>
    show win0_6.index ⟨(i 0).val / 5000, hlt⟩ (0 : Fin 2) * 5000 ≤ (i 0).val
      ∧ (i 0).val < win0_6.index ⟨(i 0).val / 5000, hlt⟩ (0 : Fin 2) * 5000 + 5000
    rw [h0]
    show (i 0).val / 5000 * 5000 ≤ (i 0).val ∧ (i 0).val < (i 0).val / 5000 * 5000 + 5000
    omega
  | ⟨1, _⟩ =>
    show win0_6.index ⟨(i 0).val / 5000, hlt⟩ (1 : Fin 2) * 128 ≤ (i 1).val
      ∧ (i 1).val < win0_6.index ⟨(i 0).val / 5000, hlt⟩ (1 : Fin 2) * 128 + 128
    rw [h1]
    omega

/-- THE RESULT ARRAY after the run is the dense stage of the arrays the region found. -/
theorem final (c : Dev nD) : (dats m 0 c).arrAt 6 cfg0.N = result m c :=
  (dats m 0 c).arrAt_eq_of_cover 6 (result m c) (fun t _ => flushed_eq m c t) cover

/-- The kernel's run, read: the result at the dense stage, the arguments unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Sage

end
-- ==== Proof.SagePrefix.lean ====
/-
  The arrays the kernel's region finds that the host wrote before it.

  Before the region the kernel's program runs the same aggregation as the reference — the gather of feature rows, the
  accumulating scatter onto target nodes, the in-degree and its maximum with one —, then takes the reciprocal of the
  clipped in-degree and recasts it as a column [100000, 1], and recasts the bias as a row [1, 128].  So the summed
  messages the region finds are the reference's, the column's entry (n, 0) is 1 / M(n), and the row's entry (0, q) is
  bias(q).
-/
import proofs.«174371_j91250875171573_2_alg».proof.Proof.Gen.KernelIdeal.Frame
import proofs.«174371_j91250875171573_2_alg».proof.Proof.Gen.ReferenceIdeal.Read
import proofs.«174371_j91250875171573_2_alg».proof.Proof.LibGcnBody
import Idealize.ShloMosaic.Lib.StableHlo.Run
import Idealize.ShloMosaic.Lib.IdealHost

noncomputable section

namespace Cert.KernelIdeal.SagePrefix

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 1000000 in
/-- The summed messages the region finds are the reference's stage of the same arguments. -/
theorem V_summed (c : Dev nD) :
    (V m c main_v9 : S100000x128.Idx → EReal)
      = Cert.ReferenceIdeal.Read.val_main_v9 (F := Ideal) (m ((c : Thread nD τ).loc main_arg0))
          (m ((c : Thread nD τ).loc main_arg4)) (m ((c : Thread nD τ).loc main_arg5)) := by
  dsimp only [Gen.V, Gen.hostOps0]
  after_results
  rfl

set_option maxHeartbeats 1000000 in
/-- The column the region finds: the quotient of ones by the reference's clipped in-degree, recast [100000] → [100000, 1]. -/
theorem V_inv (c : Dev nD) :
    (V m c main_v18 : S100000x1.Idx → EReal)
      = shapeCast S100000x1
          (Host.divf (F := Ideal) (broadcastInDim S100000 ![] bcast_S_S100000 (constant (F := Ideal) S_ .f32 0x3F800000#32))
            (Cert.ReferenceIdeal.Read.val_main_v15 (F := Ideal) (m ((c : Thread nD τ).loc main_arg5))))
          shapeCasts_S100000_S100000x1 := by
  dsimp only [Gen.V, Gen.hostOps0]
  after_results
  rfl

set_option maxHeartbeats 1000000 in
/-- The bias row the region finds: the bias recast [128] → [1, 128]. -/
theorem V_bias (c : Dev nD) :
    (V m c main_v19 : S1x128.Idx → EReal)
      = shapeCast S1x128 (m ((c : Thread nD τ).loc main_arg3) : S128.Idx → EReal) shapeCasts_S128_S1x128 := by
  dsimp only [Gen.V, Gen.hostOps0]
  after_results
  rfl

/-- The column at (n, 0): one over the clipped in-degree of node n. -/
theorem V_inv_apply (c : Dev nD) (n : Fin 100000) :
    (V m c main_v18 : S100000x1.Idx → EReal) (ix2 n (0 : Fin 1))
      = Ideal.div (Ideal.ofBits .f32 0x3F800000#32)
          (Cert.ReferenceIdeal.Read.val_main_v15 (F := Ideal) (m ((c : Thread nD τ).loc main_arg5)) (ix1 n)) := by
  rw [V_inv, Cert.Attn.Layout.shapeCast_a_a1_apply, hostDivf_apply, broadcastInDim_scalar_apply]
  rfl

/-- The bias row at (0, q): the bias at q. -/
theorem V_bias_apply (c : Dev nD) (q : Fin 128) :
    (V m c main_v19 : S1x128.Idx → EReal) (ix2 (0 : Fin 1) q)
      = (m ((c : Thread nD τ).loc main_arg3) : S128.Idx → EReal) (ix1 q) := by
  rw [V_bias, Cert.Gcn.Body.shapeCast_b_1b_apply]

end Cert.KernelIdeal.SagePrefix

end
-- ==== Proof.LibRealSums.lean ====
import Mathlib.Data.EReal.Operations
import Mathlib.Algebra.BigOperators.Ring.Finset
import Mathlib.Tactic.Ring

/-!
# Finite sums of extended reals that are all real numbers

Multiplication of extended reals does not distribute over addition when
infinities are present, so the usual algebra of finite sums (pulling a constant
factor out of a sum, reassociating products under a sum) is not available in
general.  When every term is a genuine real number, each identity can be moved
to the field of real numbers through the coercion, proved there by ring
algebra, and moved back.  This file collects the small amount of that
machinery needed to rescale contractions and aggregations by a real constant.
-/

namespace Cert.RealSums

open scoped BigOperators

/-- An extended real that is a real number. -/
def IsReal (x : EReal) : Prop := ∃ r : ℝ, x = (r : EReal)

/-- Zero is a real number. -/
theorem IsReal.zero : IsReal 0 := ⟨0, EReal.coe_zero.symm⟩

/-- The coercion of a real number is a real number. -/
theorem IsReal.coe (r : ℝ) : IsReal (r : EReal) := ⟨r, rfl⟩

/-- The sum of two real numbers is a real number. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The larger of two real numbers is a real number: it is one of the two. -/
theorem IsReal.max {x y : EReal} (hx : IsReal x) (hy : IsReal y) : IsReal (max x y) := by
  rcases max_choice x y with h | h
  · rw [h]; exact hx
  · rw [h]; exact hy

/-- The coercion from the reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a t ha ih
    rw [Finset.sum_insert ha, Finset.sum_insert ha, EReal.coe_add, ih]

/-- A family of extended reals that are real on a finite set is, on that set,
the coercion of a real-valued family (take the real part of each term). -/
theorem exists_real_fun {ι : Type*} (s : Finset ι) (f : ι → EReal)
    (h : ∀ i ∈ s, IsReal (f i)) : ∃ g : ι → ℝ, ∀ i ∈ s, f i = (g i : EReal) := by
  refine ⟨fun i => (f i).toReal, fun i hi => ?_⟩
  obtain ⟨r, hr⟩ := h i hi
  show f i = (((f i).toReal : ℝ) : EReal)
  rw [hr, EReal.toReal_coe]

/-- A finite sum of real numbers is a real number. -/
theorem IsReal.sum {ι : Type*} (s : Finset ι) (f : ι → EReal)
    (h : ∀ i ∈ s, IsReal (f i)) : IsReal (∑ i ∈ s, f i) := by
  obtain ⟨g, hg⟩ := exists_real_fun s f h
  refine ⟨∑ i ∈ s, g i, ?_⟩
  rw [coe_sum]
  exact Finset.sum_congr rfl hg

/-- Scaling every left factor of a contraction by one real D scales the
contraction: Σ_k (a k · D) · w k = (Σ_k a k · w k) · D. -/
theorem sum_mul_scale {κ : Type*} (s : Finset κ) (a w : κ → EReal) (D : EReal)
    (ha : ∀ k ∈ s, IsReal (a k)) (hw : ∀ k ∈ s, IsReal (w k)) (hD : IsReal D) :
    ∑ k ∈ s, (a k * D) * w k = (∑ k ∈ s, a k * w k) * D := by
  obtain ⟨a', ha'⟩ := exists_real_fun s a ha
  obtain ⟨w', hw'⟩ := exists_real_fun s w hw
  obtain ⟨d, rfl⟩ := hD
  -- both sides are coercions of real sums
  have h1 : ∑ k ∈ s, (a k * (d : EReal)) * w k
      = ((∑ k ∈ s, (a' k * d) * w' k : ℝ) : EReal) := by
    rw [coe_sum]
    refine Finset.sum_congr rfl fun k hk => ?_
    rw [ha' k hk, hw' k hk, EReal.coe_mul, EReal.coe_mul]
  have h2 : ∑ k ∈ s, a k * w k = ((∑ k ∈ s, a' k * w' k : ℝ) : EReal) := by
    rw [coe_sum]
    refine Finset.sum_congr rfl fun k hk => ?_
    rw [ha' k hk, hw' k hk, EReal.coe_mul]
  -- in the reals: pull the constant out of the sum, term by term
  have h3 : (∑ k ∈ s, (a' k * d) * w' k : ℝ) = (∑ k ∈ s, a' k * w' k) * d := by
    rw [Finset.sum_mul]
    refine Finset.sum_congr rfl fun k _ => ?_
    ring
  rw [h1, h2, h3, EReal.coe_mul]

/-- The aggregation law: if every summand P u is Q u scaled by ds u, and dd is
the constant D on the set, then scaling the sum of the P's by D gives the sum of
the Q's scaled by ds·dd.  (The leading 0 + is how the sums arrive: an
accumulation into zero.) -/
theorem agg_scale {U : Type*} (A : Finset U) (P Q ds dd : U → EReal) (D : EReal)
    (hQ : ∀ u ∈ A, IsReal (Q u)) (hds : ∀ u ∈ A, IsReal (ds u)) (hD : IsReal D)
    (hP : ∀ u ∈ A, P u = Q u * ds u) (hdd : ∀ u ∈ A, dd u = D) :
    (0 + ∑ u ∈ A, P u) * D = 0 + ∑ u ∈ A, Q u * (ds u * dd u) := by
  obtain ⟨q, hq⟩ := exists_real_fun A Q hQ
  obtain ⟨e, he⟩ := exists_real_fun A ds hds
  obtain ⟨d, rfl⟩ := hD
  have h1 : ∑ u ∈ A, P u = ((∑ u ∈ A, q u * e u : ℝ) : EReal) := by
    rw [coe_sum]
    refine Finset.sum_congr rfl fun u hu => ?_
    rw [hP u hu, hq u hu, he u hu, EReal.coe_mul]
  have h2 : ∑ u ∈ A, Q u * (ds u * dd u)
      = ((∑ u ∈ A, q u * (e u * d) : ℝ) : EReal) := by
    rw [coe_sum]
    refine Finset.sum_congr rfl fun u hu => ?_
    rw [hq u hu, he u hu, hdd u hu, EReal.coe_mul, EReal.coe_mul]
  -- in the reals: (Σ q·e)·d = Σ q·(e·d)
  have h3 : (∑ u ∈ A, q u * e u : ℝ) * d = ∑ u ∈ A, q u * (e u * d) := by
    rw [Finset.sum_mul]
    refine Finset.sum_congr rfl fun u _ => ?_
    ring
  rw [zero_add, zero_add, h1, h2, ← EReal.coe_mul, h3]

/-- and the same sum is a real number -/
theorem agg_isReal {U : Type*} (A : Finset U) (Q ds dd : U → EReal) (D : EReal)
    (hQ : ∀ u ∈ A, IsReal (Q u)) (hds : ∀ u ∈ A, IsReal (ds u)) (hD : IsReal D)
    (hdd : ∀ u ∈ A, dd u = D) :
    IsReal (0 + ∑ u ∈ A, Q u * (ds u * dd u)) := by
  rw [zero_add]
  refine IsReal.sum A _ fun u hu => ?_
  rw [hdd u hu]
  exact (hQ u hu).mul ((hds u hu).mul hD)

end Cert.RealSums
-- ==== Proof.SageLaw.lean ====
/-
  The one algebraic law of the mean aggregation, and why its hypotheses hold.

  The kernel multiplies the row (Σ_k s_k · w_k) by the reciprocal 1/M of the row's clipped in-degree M = max(deg, 1);
  the reference divides every s_k by M before the product with w_k.  On the extended reals multiplication does not
  distribute over sums in general, but when every s_k and w_k is a real number and M is a real number that is at
  least one, division by M is multiplication by the real 1/M and the factor moves across the finite sum.

  An accumulating scatter of real updates into a real operand has real entries, wherever the updates land: an entry
  is the operand's entry plus a finite sum of update entries.  So the summed messages are real when the features are,
  the in-degree (ones accumulated into zeros) is real, and its maximum with one is real and at least one.
-/
import Idealize.ShloMosaic.PureOps.Ideal
import Idealize.ShloMosaic.PureOps.Ideal.Laws
import Idealize.ShloMosaic.Lib.IdealHost
import proofs.«174371_j91250875171573_2_alg».proof.Proof.LibRealSums

noncomputable section

namespace Cert.Sage.Law

open Idealize.ShloMosaic Cert.RealSums
open scoped BigOperators

/-- A real number that is at least one, as an extended real, is the coercion of a nonzero real. -/
theorem exists_ne_zero_of_one_le {M : EReal} (hM : IsReal M) (h1 : 1 ≤ M) : ∃ r : ℝ, M = (r : EReal) ∧ r ≠ 0 := by
  obtain ⟨r, rfl⟩ := hM
  have h : (1 : ℝ) ≤ r := by exact_mod_cast h1
  exact ⟨r, rfl, ne_of_gt (lt_of_lt_of_le one_pos h)⟩

/-- THE LAW: a row contraction scaled by 1/M is the contraction of the row divided by M entry by entry, for real
    entries and a real M ≥ 1. -/
theorem scaled_contraction {κ : Type*} [Fintype κ] (s w : κ → EReal) (M : EReal)
    (hs : ∀ k, IsReal (s k)) (hw : ∀ k, IsReal (w k)) (hM : IsReal M) (h1 : 1 ≤ M) :
    (∑ k, s k * w k) * Ideal.div 1 M = ∑ k, Ideal.div (s k) M * w k := by
  obtain ⟨r, rfl, hr⟩ := exists_ne_zero_of_one_le hM h1
  rw [Ideal.div_coe hr, one_mul]
  simp only [Ideal.div_coe hr]
  exact (sum_mul_scale Finset.univ s w _ (fun k _ => hs k) (fun k _ => hw k) (IsReal.coe _)).symm

/-- The same law with the numerator spelt as the word of 1.0, as the kernel's program has it. -/
theorem scaled_contraction_word {κ : Type*} [Fintype κ] (s w : κ → EReal) (M : EReal)
    (hs : ∀ k, IsReal (s k)) (hw : ∀ k, IsReal (w k)) (hM : IsReal M) (h1 : 1 ≤ M) :
    (∑ k, s k * w k) * Ideal.div (Ideal.ofBits .f32 0x3F800000#32) M = ∑ k, Ideal.div (s k) M * w k := by
  rw [Ideal.ofBits_one_f32]
  exact scaled_contraction s w M hs hw hM h1

/-- An accumulating scatter of real updates into a real operand has real entries. -/
theorem isReal_scatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (IsReal.sum _ _ fun j _ => hu j)

/-- The host's accumulating scatter at the ideal values, in the spelling the printed programs use: real updates into a
    real operand give real entries.  (Stated over arbitrary arrays, so that using it on a program's stage is a matter
    of naming the stage's operands and nothing is computed.) -/
theorem isReal_hostScatterAdd {s si su : Shape} (d : ScatterDims s si su) {w : Nat} (x : FVec Ideal s .f32)
    (idx : IVec si w) (upd : FVec Ideal su .f32) (hx : ∀ i, IsReal (x i)) (hu : ∀ j, IsReal (upd j)) (i : s.Idx) :
    IsReal (Host.scatterAdd (F := Ideal) d x idx upd i) :=
  isReal_scatterAdd d x idx upd hx hu i

/-- A gathered entry of an array of real numbers is a real number: it is one of the array's entries. -/
theorem isReal_gather {s si t : Shape} (d : GatherDims s si t) {w : Nat} (x : s.Idx → EReal) (idx : IVec si w)
    (hx : ∀ i, IsReal (x i)) (j : t.Idx) : IsReal (Host.gather d x idx j) :=
  hx _

/-- The clipped count in the programs' spelling: the maximum of a real count with the word of 1.0 is real and at least one. -/
theorem clipped_count_word {c : EReal} (hc : IsReal c) :
    IsReal (FloatOps.maximumf (F := Ideal) (φ := .f32) c (FloatOps.ofBits (F := Ideal) .f32 0x3F800000#32))
      ∧ 1 ≤ FloatOps.maximumf (F := Ideal) (φ := .f32) c (FloatOps.ofBits (F := Ideal) .f32 0x3F800000#32) := by
  refine ⟨hc.max ?_, ?_⟩
  · show IsReal (Ideal.ofBits .f32 0x3F800000#32)
    rw [Ideal.ofBits_one_f32]
    exact ⟨1, EReal.coe_one.symm⟩
  · show 1 ≤ max c (Ideal.ofBits .f32 0x3F800000#32)
    rw [Ideal.ofBits_one_f32]
    exact le_max_right _ _

/-- The words of 0.0 and 1.0 in the programs' spelling are real numbers. -/
theorem isReal_zero_ofBits : IsReal (FloatOps.ofBits (F := Ideal) .f32 0x00000000#32) := by
  show IsReal (Ideal.ofBits .f32 0x00000000#32)
  rw [Ideal.ofBits_zero_f32]
  exact IsReal.zero

theorem isReal_one_ofBits : IsReal (FloatOps.ofBits (F := Ideal) .f32 0x3F800000#32) := by
  show IsReal (Ideal.ofBits .f32 0x3F800000#32)
  rw [Ideal.ofBits_one_f32]
  exact ⟨1, EReal.coe_one.symm⟩

/-- The word of 1.0 is the real number one. -/
theorem isReal_one_word : IsReal (Ideal.ofBits .f32 0x3F800000#32) := by
  rw [Ideal.ofBits_one_f32]
  exact ⟨1, EReal.coe_one.symm⟩

/-- The word of 0.0 is the real number zero. -/
theorem isReal_zero_word : IsReal (Ideal.ofBits .f32 0x00000000#32) := by
  rw [Ideal.ofBits_zero_f32]
  exact IsReal.zero

/-- The clipped count max(c, 1.0) of a real count c is real and at least one. -/
theorem clipped_count {c : EReal} (hc : IsReal c) :
    IsReal (max c (Ideal.ofBits .f32 0x3F800000#32)) ∧ 1 ≤ max c (Ideal.ofBits .f32 0x3F800000#32) := by
  refine ⟨hc.max isReal_one_word, ?_⟩
  rw [Ideal.ofBits_one_f32]
  exact le_max_right _ _

end Cert.Sage.Law

end
-- ==== Proof.SageRef.lean ====
/-
  The reference read at one entry, and the two facts about its aggregation the joining law needs.

  The reference's result at (n, q) is  Σ_k (s(n,k) / M(n)) · w(k,q) + Σ_k x(n,k) · r(k,q) + bias(q),  where s is the
  accumulating scatter of the gathered feature rows onto their target nodes and M = max(deg, 1) is the clipped
  in-degree, deg the accumulating scatter of ones.  Every entry of s is a real number when every feature is: a gathered
  entry is some feature entry, and a scatter of real updates into zeros has real entries.  The in-degree is real for
  the same reason, so M is real and at least one.
-/
import proofs.«174371_j91250875171573_2_alg».proof.Proof.Gen.ReferenceIdeal.Read
import proofs.«174371_j91250875171573_2_alg».proof.Proof.SageLaw
import Idealize.ShloMosaic.Lib.ValueIdx
import Idealize.ShloMosaic.Lib.IdealHost

noncomputable section

namespace Cert.ReferenceIdeal.Sage

open Cert.ReferenceIdeal Cert.ReferenceIdeal.Read Cert.Sage.Law Cert.RealSums
open Idealize.ShloMosaic Idealize.ShloMosaic.ValueIdx
open scoped BigOperators

variable (x0 : (⟨S100000x128, .f32⟩ : BufTy).Contents (Elt Ideal)) (x1 x2 : (⟨S128x128, .f32⟩ : BufTy).Contents (Elt Ideal))
  (x3 : (⟨S128, .f32⟩ : BufTy).Contents (Elt Ideal)) (x4 x5 : (⟨S640000, .i32⟩ : BufTy).Contents (Elt Ideal))

/-- THE REFERENCE AT (n, q). -/
theorem ref_apply (n : Fin 100000) (q : Fin 128) :
    val_main_v24 (F := Ideal) x0 x1 x2 x3 x4 x5 (ix2 n q)
      = (∑ k : Fin 128, Ideal.div (val_main_v9 (F := Ideal) x0 x4 x5 (ix2 n k)) (val_main_v15 (F := Ideal) x5 (ix1 n))
            * x1 (ix2 k q))
        + (∑ k : Fin 128, x0 (ix2 n k) * x2 (ix2 k q)) + x3 (ix1 q) := by
  have e1 : ∀ k : Fin 128, lidx_main_v19 (ix2 n q) k = ix2 n k := fun k =>
    funext fun a => Fin.ext (by match a with | ⟨0, _⟩ => rfl | ⟨1, _⟩ => rfl)
  have e2 : ∀ k : Fin 128, ridx_main_v19 (ix2 n q) k = ix2 k q := fun k =>
    funext fun a => Fin.ext (by match a with | ⟨0, _⟩ => rfl | ⟨1, _⟩ => rfl)
  have e3 : ∀ k : Fin 128, lidx_main_v20 (ix2 n q) k = ix2 n k := fun k =>
    funext fun a => Fin.ext (by match a with | ⟨0, _⟩ => rfl | ⟨1, _⟩ => rfl)
  have e4 : ∀ k : Fin 128, ridx_main_v20 (ix2 n q) k = ix2 k q := fun k =>
    funext fun a => Fin.ext (by match a with | ⟨0, _⟩ => rfl | ⟨1, _⟩ => rfl)
  have e5 : idx_main_v23 (ix2 n q) = ix2 (0 : Fin 1) q :=
    funext fun a => Fin.ext (by match a with | ⟨0, _⟩ => rfl | ⟨1, _⟩ => rfl)
  have e6 : idx_main_v22 (ix2 (0 : Fin 1) q) = ix1 q :=
    funext fun a => Fin.ext (by match a with | ⟨0, _⟩ => rfl)
  have e7 : ∀ k : Fin 128, idx_main_v17 (ix2 n k) = ix2 n (0 : Fin 1) := fun k =>
    funext fun a => Fin.ext (by match a with | ⟨0, _⟩ => rfl | ⟨1, _⟩ => rfl)
  have e8 : idx_main_v16 (ix2 n (0 : Fin 1)) = ix1 n :=
    funext fun a => Fin.ext (by match a with | ⟨0, _⟩ => rfl)
  rw [val_main_v24_apply, val_main_v21_apply, val_main_v19_apply, val_main_v20_apply, val_main_v23_apply, e5,
    val_main_v22_apply, e6, Ideal.addf_def, Ideal.addf_def]
  refine congrArg₂ (· + ·) (congrArg₂ (· + ·) (Finset.sum_congr rfl fun k _ => ?_) (Finset.sum_congr rfl fun k _ => ?_)) rfl
  · rw [e1, e2, val_main_v18_apply, Ideal.hostDivf_def, val_main_v17_apply, e7, val_main_v16_apply, e8]
  · rw [e3, e4]

/-- Every summed message is a real number when every feature is. -/
theorem summed_real (hx : ∀ i, IsReal (x0 i)) (i : S100000x128.Idx) : IsReal (val_main_v9 (F := Ideal) x0 x4 x5 i) := by
  unfold val_main_v9
  refine isReal_hostScatterAdd scatter_S100000x128_S640000x1_S640000x128_1_0_0_1 (val_main_v7 (F := Ideal))
    (val_main_v8 (F := Ideal) x5) (val_main_v6 (F := Ideal) x0 x4) (fun i => ?_) (fun j => ?_) i
  · rw [val_main_v7_apply, val_main_cst_apply]
    exact isReal_zero_ofBits
  · unfold val_main_v6
    exact isReal_gather _ x0 _ hx j

/-- The in-degree is a real number. -/
theorem degree_real (i : S100000.Idx) : IsReal (val_main_v13 (F := Ideal) x5 i) := by
  unfold val_main_v13
  refine isReal_hostScatterAdd scatter_S100000_S640000x1_S640000_n_0_0_1 (val_main_v11 (F := Ideal))
    (val_main_v12 (F := Ideal) x5) (val_main_v10 (F := Ideal)) (fun i => ?_) (fun j => ?_) i
  · rw [val_main_v11_apply, val_main_cst_2_apply]
    exact isReal_zero_ofBits
  · rw [val_main_v10_apply, val_main_cst_1_apply]
    exact isReal_one_ofBits

/-- The clipped in-degree is a real number that is at least one. -/
theorem clipped_real (i : S100000.Idx) :
    IsReal (val_main_v15 (F := Ideal) x5 i) ∧ 1 ≤ val_main_v15 (F := Ideal) x5 i := by
  rw [val_main_v15_apply, val_main_v14_apply, val_main_cst_3_apply]
  exact clipped_count_word (degree_real x5 i)

end Cert.ReferenceIdeal.Sage

end
-- ==== Proof.SageBridge.lean ====
/-
  The two sides are one function of the arguments.

  The kernel's result is the dense stage of the arrays its region finds; those are the reference's summed messages, the
  column of reciprocals 1 / M(n) of the reference's clipped in-degree, the two weights and the bias as launched.  Entry
  (n, q) is therefore (Σ_k s(n,k)·w(k,q)) · (1 / M(n)) + Σ_k x(n,k)·r(k,q) + bias(q), and the reference's entry is
  Σ_k (s(n,k) / M(n))·w(k,q) + Σ_k x(n,k)·r(k,q) + bias(q).  With every s(n,k) and w(k,q) real and M(n) a real number
  at least one, the first terms agree by the law of the scaled contraction; the other two terms are the same.
-/
import proofs.«174371_j91250875171573_2_alg».proof.Proof.SageBlocks
import proofs.«174371_j91250875171573_2_alg».proof.Proof.SagePrefix
import proofs.«174371_j91250875171573_2_alg».proof.Proof.SageRef

noncomputable section

namespace Cert.KernelIdeal.SageBridge

open Cert.KernelIdeal Cert.KernelIdeal.Gen Cert.KernelIdeal.Sage Cert.KernelIdeal.SagePrefix Cert.Sage.Spec Cert.Sage.Law
open Cert.RealSums Idealize.ShloMosaic Idealize.ShloMosaic.TcCoe Idealize.SL.Sem Idealize.ShloMosaic.ValueIdx
open scoped BigOperators

variable (m : (ℓ : Loc nD τ sig) → Buf (Elt Ideal) ℓ)

/-- The kernel's result array is the reference's result term of the launch arguments, when the features and the
    neighbour weight are real entry by entry. -/
theorem result_eq (c : Dev nD)
    (hx : ∀ i, IsReal ((m ((c : Thread nD τ).loc main_arg0) : S100000x128.Idx → EReal) i))
    (hw : ∀ i, IsReal ((m ((c : Thread nD τ).loc main_arg1) : S128x128.Idx → EReal) i)) :
    result m c
      = Cert.ReferenceIdeal.Read.val_main_v24 (F := Ideal) (m ((c : Thread nD τ).loc main_arg0))
          (m ((c : Thread nD τ).loc main_arg1)) (m ((c : Thread nD τ).loc main_arg2))
          (m ((c : Thread nD τ).loc main_arg3)) (m ((c : Thread nD τ).loc main_arg4))
          (m ((c : Thread nD τ).loc main_arg5)) := by
  funext i
  obtain ⟨n, q, rfl⟩ : ∃ (n : Fin 100000) (q : Fin 128), i = ix2 n q := ⟨i 0, i 1, eq_ix2 i⟩
  rw [Cert.ReferenceIdeal.Sage.ref_apply]
  unfold result
  rw [dense_ix2, V_inv_apply, V_bias_apply, V_summed, V_main_arg0, V_main_arg1,
    V_main_arg2]
  obtain ⟨hM, h1⟩ := Cert.ReferenceIdeal.Sage.clipped_real (m ((c : Thread nD τ).loc main_arg5)) (ix1 n)
  have key := scaled_contraction_word
    (fun k : Fin 128 => Cert.ReferenceIdeal.Read.val_main_v9 (F := Ideal) (m ((c : Thread nD τ).loc main_arg0))
      (m ((c : Thread nD τ).loc main_arg4)) (m ((c : Thread nD τ).loc main_arg5)) (ix2 n k))
    (fun k : Fin 128 => (m ((c : Thread nD τ).loc main_arg1) : S128x128.Idx → EReal) (ix2 k q))
    (Cert.ReferenceIdeal.Read.val_main_v15 (F := Ideal) (m ((c : Thread nD τ).loc main_arg5)) (ix1 n))
    (fun k => Cert.ReferenceIdeal.Sage.summed_real (m ((c : Thread nD τ).loc main_arg0))
      (m ((c : Thread nD τ).loc main_arg4)) (m ((c : Thread nD τ).loc main_arg5)) hx (ix2 n k))
    (fun k => hw (ix2 k q)) hM h1
  rw [key]

end Cert.KernelIdeal.SageBridge

end
-- ==== Proof.LibFiniteReal.lean ====
/-
  "Every entry is finite", read back at the ideal reading: every entry is a real number.

  A precondition that says an array holds finite floats is printed as: take absolute values, compare each with the
  infinity word by "less than", and fold the one-bit answers by "and" from one; the claim states that the result is one.
  At the ideal reading a float is an extended real, the infinity word is `+∞`, the absolute value of `x` is the larger of
  `x` and `−x`, and the comparison is the order's.  So the fold being one says `max x (−x) < +∞` of every entry, and an
  extended real with that property is neither infinity: it is a real number.  This is the step that lets an identity
  proved over the real numbers be used under a finiteness precondition, for an array of any shape.  The companion
  read-back of "every entry is greater than zero" is stated the same way.
-/
import Idealize.ShloMosaic.PureOps.Ideal
import Idealize.ShloMosaic.Lib.ReduceAll
import Idealize.ShloMosaic.Lib.Pipeline.Value

noncomputable section

open Idealize.ShloMosaic

namespace Cert.FiniteReal

/-- The infinity word denotes `+∞`. -/
theorem inf_word : Ideal.ofBits .f32 0x7F800000#32 = (⊤ : EReal) := by simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The absolute value and the comparison at the ideal reading, on any two extended reals. -/
theorem absf_ideal (x : EReal) : FloatOps.absf (F := Ideal) (φ := .f32) x = max x (-x) := rfl
theorem cmpf_ideal (p : CmpFPredicate) (x y : EReal) : FloatOps.cmpf (F := Ideal) (φ := .f32) p x y = Ideal.cmp p x y := rfl

/-- One entry: if "its absolute value is less than the infinity word" is the word one, the entry is a real number. -/
theorem real_of_finite_word (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [Ideal.hostAbsf_def, absf_ideal, cmpf_ideal, inf_word] at h
  apply real_of_abs_lt_top
  by_contra hn
  unfold Ideal.cmp at h
  simp [hn] at h

section Generic

variable {F : FTy → Type} [FloatOps F] {s : Shape}

/-- The entrywise comparison of the absolute values with a spread scalar, opened at an index. -/
theorem finite_test_open (x : FVec F s .f32) (hb : (⟨0, ![]⟩ : Shape).BroadcastsInDim s (![] : Fin 0 → Fin s.rank))
    (c : FVec F ⟨0, ![]⟩ .f32) (i : s.Idx) :
    cmpf .olt (Host.absf x) (broadcastInDim s ![] hb c) i
      = FloatOps.cmpf .olt (FloatOps.hostAbsf (x i)) (broadcastInDim s ![] hb c i) := rfl

end Generic

/-- All entries: if the fold by "and" of "absolute value less than the infinity word" over the whole array is one, every
    entry of the array is a real number. -/
theorem real_of_all_finite {s u : Shape} {axes : List (Fin s.rank)} (x : FVec Ideal s .f32)
    (hb : (⟨0, ![]⟩ : Shape).BroadcastsInDim s (![] : Fin 0 → Fin s.rank)) (init : u.Idx → BitVec 1)
    (h : s.ReducesTo axes ⟨0, ![]⟩) (hu : 0 < u.numel) (j : (⟨0, ![]⟩ : Shape).Idx)
    (e : Host.reduce IntOp.andi
        (cmpf .olt (Host.absf x) (broadcastInDim s ![] hb (constant (F := Ideal) ⟨0, ![]⟩ .f32 0x7F800000#32))) init h hu j = 1#1)
    (i : s.Idx) : ∃ r : ℝ, x i = (r : EReal) := by
  haveI : Subsingleton (⟨0, ![]⟩ : Shape).Idx := ⟨fun a b => funext fun d => d.elim0⟩
  have e1 := Host.reduce_andi_all _ init h hu j e i
  rw [finite_test_open,
    broadcastInDim_apply ![] hb (constant (F := Ideal) ⟨0, ![]⟩ .f32 0x7F800000#32) i (fun a => a.elim0) (fun a => a.elim0)] at e1
  exact real_of_finite_word (x i) e1

section GenericGt

variable {F : FTy → Type} [FloatOps F] {s : Shape}

/-- The entrywise comparison "greater than" with a spread scalar, opened at an index. -/
theorem gt_test_open (v : FVec F s .f32) (hb : (⟨0, ![]⟩ : Shape).BroadcastsInDim s (![] : Fin 0 → Fin s.rank))
    (c : FVec F ⟨0, ![]⟩ .f32) (i : s.Idx) :
    cmpf .ogt v (broadcastInDim s ![] hb c) i = FloatOps.cmpf .ogt (v i) (broadcastInDim s ![] hb c i) := rfl

end GenericGt

/-- "Every entry is greater than zero", read back: if the fold by "and" of "greater than the zero word" over the whole
    array is one, every entry of the array is positive. -/
theorem pos_of_all_gt_zero {s u : Shape} {axes : List (Fin s.rank)} (v : FVec Ideal s .f32)
    (hb : (⟨0, ![]⟩ : Shape).BroadcastsInDim s (![] : Fin 0 → Fin s.rank)) (init : u.Idx → BitVec 1)
    (h : s.ReducesTo axes ⟨0, ![]⟩) (hu : 0 < u.numel) (j : (⟨0, ![]⟩ : Shape).Idx)
    (e : Host.reduce IntOp.andi
        (cmpf .ogt v (broadcastInDim s ![] hb (constant (F := Ideal) ⟨0, ![]⟩ .f32 0x00000000#32))) init h hu j = 1#1)
    (i : s.Idx) : 0 < v i := by
  haveI : Subsingleton (⟨0, ![]⟩ : Shape).Idx := ⟨fun a b => funext fun d => d.elim0⟩
  have e1 := Host.reduce_andi_all _ init h hu j e i
  rw [gt_test_open,
    broadcastInDim_apply ![] hb (constant (F := Ideal) ⟨0, ![]⟩ .f32 0x00000000#32) i (fun a => a.elim0) (fun a => a.elim0),
    cmpf_ideal] at e1
  have hz : (constant (F := Ideal) ⟨0, ![]⟩ .f32 0x00000000#32) (fun a => a.elim0) = (0 : EReal) := by
    show Ideal.ofBits .f32 0x00000000#32 = 0
    simp [Ideal.ofBits, Ideal.ieee]
  rw [hz] at e1
  by_contra hn
  unfold Ideal.cmp at e1
  simp [hn] at e1

end Cert.FiniteReal

end
-- ==== Proof.SageFinite.lean ====
/-
  What the precondition gives: every node feature and every neighbour-weight entry is a real number.

  The precondition is the conjunction, by "and" of one-bit words, of four tests "every entry of the array has absolute
  value below the infinity word", one per float argument.  The conjunction being one makes each test one, and a test
  that is one makes every entry of its array a real number.  The joining law needs this of the features (through the
  summed messages) and of the neighbour weight.
-/
import proofs.«174371_j91250875171573_2_alg».proof.Pre_finite_inputs
import proofs.«174371_j91250875171573_2_alg».proof.Proof.Gen.Pre_finite_inputs
import proofs.«174371_j91250875171573_2_alg».proof.Proof.LibFiniteReal
import proofs.«174371_j91250875171573_2_alg».proof.Proof.LibRealSums
import Idealize.ShloMosaic.Lib.Affine
import Idealize.ShloMosaic.Lib.ValueIdx

noncomputable section

namespace Cert.Pre_finite_inputs.Sage

open Cert.Pre_finite_inputs Idealize.ShloMosaic Cert.RealSums

/-- The precondition at the ideal values makes the features and the neighbour weight real, entry by entry. -/
theorem real_of_pre (x0 : FVec Ideal S100000x128 .f32) (x1 x2 : FVec Ideal S128x128 .f32) (x3 : FVec Ideal S128 .f32)
    (x4 x5 : IVec S640000 32) (h : fn (F := Ideal) x0 x1 x2 x3 x4 x5 = fun _ => 1#1) :
    (∀ i, IsReal (x0 i)) ∧ (∀ i, IsReal (x1 i)) := by
  have h0 := congrFun h ValueIdx.ix0
  dsimp only [fn, fn_part1] at h0
  obtain ⟨h123, -⟩ := IntOp.andi_eq_one.1 h0
  obtain ⟨h12, -⟩ := IntOp.andi_eq_one.1 h123
  obtain ⟨h1, h2⟩ := IntOp.andi_eq_one.1 h12
  exact ⟨fun i => Cert.FiniteReal.real_of_all_finite x0 _ _ _ _ _ h1 i,
    fun i => Cert.FiniteReal.real_of_all_finite x1 _ _ _ _ _ h2 i⟩

end Cert.Pre_finite_inputs.Sage

end
-- ==== Proof.lean ====
/-
  A mean-aggregation graph layer in two arrangements.

  Both programs gather the feature row of every edge's source, accumulate the rows onto the edges' targets (s), count
  the edges into each target (deg) and clip the count below at one (M = max(deg, 1)); both then form
  mean · W + x · R + bias.  The reference divides s by M entry by entry and multiplies the quotient with W.  The kernel
  multiplies s with W first, block of 5000 rows by block, and scales row n of the product by the reciprocal 1 / M(n);
  its operands pass through bf16 on the way into the products, which at the ideal values changes nothing.

  At the ideal values entry (n, q) is (Σ_k s(n,k)·W(k,q)) · (1 / M(n)) + Σ_k x(n,k)·R(k,q) + bias(q) on the one side
  and Σ_k (s(n,k) / M(n))·W(k,q) + Σ_k x(n,k)·R(k,q) + bias(q) on the other.  A factor moves across a finite sum of
  extended reals only when the terms are real numbers, so the precondition is used: finite features make every s(n,k)
  real (a scatter of real rows into zeros), a finite neighbour weight makes every W(k,q) real, and M(n), the larger of
  a real count and one, is a real number at least one, so dividing by it is multiplying by the real 1 / M(n).

  The three frames: the two kernel programs' from their launch and body runs, the reference's from its run with the
  result dropped.  The kernel's idealization rewrote nothing, so there is nothing to preserve.
-/
import proofs.«174371_j91250875171573_2_alg».proof.Defs
import proofs.«174371_j91250875171573_2_alg».proof.Proof.Gen.Kernel
import proofs.«174371_j91250875171573_2_alg».proof.Proof.Gen.Kernel.Skeleton
import proofs.«174371_j91250875171573_2_alg».proof.Proof.Gen.Kernel.Launch
import proofs.«174371_j91250875171573_2_alg».proof.Proof.Gen.Kernel.Points
import proofs.«174371_j91250875171573_2_alg».proof.Proof.Gen.Kernel.Frame
import proofs.«174371_j91250875171573_2_alg».proof.Proof.Gen.KernelIdeal
import proofs.«174371_j91250875171573_2_alg».proof.Proof.Gen.KernelIdeal.Skeleton
import proofs.«174371_j91250875171573_2_alg».proof.Proof.Gen.KernelIdeal.Launch
import proofs.«174371_j91250875171573_2_alg».proof.Proof.Gen.KernelIdeal.Points
import proofs.«174371_j91250875171573_2_alg».proof.Proof.Gen.KernelIdeal.Frame
import proofs.«174371_j91250875171573_2_alg».proof.Proof.Gen.ReferenceIdeal
import proofs.«174371_j91250875171573_2_alg».proof.Proof.Gen.Pre_finite_inputs
import proofs.«174371_j91250875171573_2_alg».proof.Proof.Gen.KernelIdeal.Value
import proofs.«174371_j91250875171573_2_alg».proof.Proof.Gen.ReferenceIdeal.Run
import proofs.«174371_j91250875171573_2_alg».proof.Proof.Gen.ReferenceIdeal.Read
import proofs.«174371_j91250875171573_2_alg».proof.Proof.SageBridge
import proofs.«174371_j91250875171573_2_alg».proof.Proof.SageFinite
import Idealize.ShloMosaic.Adequacy
import Idealize.ShloMosaic.Init

noncomputable section

namespace Cert.Proof

open Idealize.ShloMosaic Idealize.ShloMosaic.TcCoe Idealize.SL.Sem

/-- The kernel's program as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end, from memories agreeing on the arguments, with the same result array: the kernel's is the dense
    stage of what its region finds, the reference's its composed term, and under the precondition the two are one
    function of the arguments. -/
theorem algebraic : Cert.algebraic_KernelIdeal_ReferenceIdeal := by
  intro m ρ m' ρ' hpre hagree
  refine ⟨fun c => Cert.KernelIdeal.Sage.result m c, Cert.KernelIdeal.Sage.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.Pre_finite_inputs.Sage.real_of_pre _ _ _ _ _ _ (hpre c)
  rw [(hagree c).1, (hagree c).2.1, (hagree c).2.2.1, (hagree c).2.2.2.1, (hagree c).2.2.2.2.1, (hagree c).2.2.2.2.2,
    Cert.ReferenceIdeal.Read.val_main_v24_eq]
  exact (Cert.KernelIdeal.SageBridge.result_eq m c hx hw).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
